-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x256 : Shape := ⟨3, ![4096, 64, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S_ : Shape := ⟨0, ![]⟩

class Facts : Prop where
  bcast_S_S4096x64x256 : S_.BroadcastsInDim S4096x64x256 (![] : Fin 0 → Fin S4096x64x256.rank)
  reducesTo_S4096x64x256_S_d0_1_2 : S4096x64x256.ReducesTo [0, 1, 2] S_
  h_S_ : 0 < S_.numel
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S4096x64x256 .f32) (main_arg1 : FVec F S768x256 .f32) (main_arg2 : FVec F S768 .f32) (main_arg3 : FVec F S256x256 .f32) (main_arg4 : FVec F S256 .f32) : IVec S_ 1 :=
  let main_v0 : FVec F S4096x64x256 .f32 := Host.absf main_arg0
  let main_cst : FVec F S_ .f32 := constant S_ .f32 0x7F800000#32
  let main_v1 : FVec F S4096x64x256 .f32 := broadcastInDim S4096x64x256 ![] bcast_S_S4096x64x256 main_cst
  let main_v2 : IVec S4096x64x256 1 := cmpf .olt main_v0 main_v1
  let main_c : IVec S_ 1 := constantI S_ 1 1#1
  let main_v3 : IVec S_ 1 := (fun x v => Host.reduce IntOp.andi x v reducesTo_S4096x64x256_S_d0_1_2 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S4096x64x256 : Shape := ⟨3, ![4096, 64, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S256x768 : Shape := ⟨2, ![256, 768]⟩
abbrev S1x768 : Shape := ⟨2, ![1, 768]⟩
abbrev S1x256 : Shape := ⟨2, ![1, 256]⟩
abbrev S32x64x256 : Shape := ⟨3, ![32, 64, 256]⟩
abbrev S2048x256 : Shape := ⟨2, ![2048, 256]⟩
abbrev S2048x768 : Shape := ⟨2, ![2048, 768]⟩
abbrev S32x64x64 : Shape := ⟨3, ![32, 64, 64]⟩
abbrev S32x64 : Shape := ⟨2, ![32, 64]⟩
abbrev S32x64x1 : Shape := ⟨3, ![32, 64, 1]⟩

abbrev nBuf : Space → Nat
  | .hbm => 12
  | .vmem => 8
  | .smem => 0
  | _ => 0

abbrev bufTy : (tb : Table) → Fin (tcTables nBuf tb) → BufTy
  | .hbm, ⟨0, _⟩ => ⟨S4096x64x256, .f32⟩
  | .hbm, ⟨1, _⟩ => ⟨S768x256, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S256x768, .f32⟩
  | .hbm, ⟨6, _⟩ => ⟨S256x768, .bf16⟩
  | .hbm, ⟨7, _⟩ => ⟨S256x256, .f32⟩
  | .hbm, ⟨8, _⟩ => ⟨S256x256, .bf16⟩
  | .hbm, ⟨9, _⟩ => ⟨S1x768, .f32⟩
  | .hbm, ⟨10, _⟩ => ⟨S1x256, .f32⟩
  | .hbm, ⟨11, _⟩ => ⟨S4096x64x256, .f32⟩
  | .local _ .vmem, ⟨0, _⟩ => ⟨S32x64x256, .f32⟩
  | .local _ .vmem, ⟨1, _⟩ => ⟨S32x64x256, .f32⟩
  | .local _ .vmem, ⟨2, _⟩ => ⟨S256x768, .bf16⟩
  | .local _ .vmem, ⟨3, _⟩ => ⟨S1x768, .f32⟩
  | .local _ .vmem, ⟨4, _⟩ => ⟨S256x256, .bf16⟩
  | .local _ .vmem, ⟨5, _⟩ => ⟨S1x256, .f32⟩
  | .local _ .vmem, ⟨6, _⟩ => ⟨S32x64x256, .f32⟩
  | .local _ .vmem, ⟨7, _⟩ => ⟨S32x64x256, .f32⟩
  | _, _ => ⟨S4096x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S768x256_S256x768_1_0 : S768x256.Transposes [1, 0] S256x768
  bitsLt_bf16_f32 : FTy.bits .bf16 < FTy.bits .f32
  transposes_S256x256_S256x256_1_0 : S256x256.Transposes [1, 0] S256x256
  shapeCasts_S768_S1x768 : S768.ShapeCasts S1x768
  shapeCasts_S256_S1x256 : S256.ShapeCasts S1x256
  inb_S32x64x256_S32x64x256_0_0_0 : ∀ a, (![0, 0, 0] : Fin 3 → Nat) a + S32x64x256.size a ≤ S32x64x256.size a
  h_S32x64x256 : 0 < S32x64x256.numel
  shapeCasts_S32x64x256_S2048x256 : S32x64x256.ShapeCasts S2048x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  slices_S2048x768_o0_0_S2048x256 : S2048x768.Slices ![0, 0] S2048x256
  slices_S2048x768_o0_256_S2048x256 : S2048x768.Slices ![0, 256] S2048x256
  slices_S2048x768_o0_512_S2048x256 : S2048x768.Slices ![0, 512] S2048x256
  shapeCasts_S2048x256_S32x64x256 : S2048x256.ShapeCasts S32x64x256
  reduces_S32x64x64_S32x64 : S32x64x64.Reduces [2] S32x64
  shapeCasts_S32x64_S32x64x1 : S32x64.ShapeCasts S32x64x1
  broadcasts_S32x64x1_S32x64x64 : S32x64x1.Broadcasts S32x64x64
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  dot_S2048x256_S256x768_S2048x768_1_0_0_1_n_n_wf : DotDims.WF S2048x256 S256x768 S2048x768 [1] [0] [0] [1] [] []
  dot_S32x64x256_S32x64x256_S32x64x64_2_2_1_1_0_0_wf : DotDims.WF S32x64x256 S32x64x256 S32x64x64 [2] [2] [1] [1] [0] [0]
  dot_S32x64x64_S32x64x256_S32x64x256_2_1_1_2_0_0_wf : DotDims.WF S32x64x64 S32x64x256 S32x64x256 [2] [1] [1] [2] [0] [0]
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x256.size a ≤ S4096x64x256.size a
  hwx0_0 : ∀ i : grid0.Coords, EltTy.bits .f32 = 32 ∨ (Rect.block (s := S4096x64x256) S32x64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x64x256.size a ≤ S4096x64x256.size a
  hwx0_5 : ∀ i : grid0.Coords, EltTy.bits .f32 = 32 ∨ (Rect.block (s := S4096x64x256) S32x64x256.size (cc0_transform_5 i) (hinb0_5 i)).WholeWords (EltTy.packing .f32)

variable [Facts₀]

def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def dot_S32x64x256_S32x64x256_S32x64x64_2_2_1_1_0_0 : DotDims S32x64x256 S32x64x256 S32x64x64 where
  lhsContracting := [2]
  rhsContracting := [2]
  lhsNonContracting := [1]
  rhsNonContracting := [1]
  lhsBatch := [0]
  rhsBatch := [0]
  wf := dot_S32x64x256_S32x64x256_S32x64x64_2_2_1_1_0_0_wf
def dot_S32x64x64_S32x64x256_S32x64x256_2_1_1_2_0_0 : DotDims S32x64x64 S32x64x256 S32x64x256 where
  lhsContracting := [2]
  rhsContracting := [1]
  lhsNonContracting := [1]
  rhsNonContracting := [2]
  lhsBatch := [0]
  rhsBatch := [0]
  wf := dot_S32x64x64_S32x64x256_S32x64x256_2_1_1_2_0_0_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S32x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S32x64x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x64x256 : Shape := ⟨3, ![4096, 64, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S4096x64x768 : Shape := ⟨3, ![4096, 64, 768]⟩
abbrev S1x1x768 : Shape := ⟨3, ![1, 1, 768]⟩
abbrev S4096x64x64 : Shape := ⟨3, ![4096, 64, 64]⟩
abbrev S_ : Shape := ⟨0, ![]⟩
abbrev S4096x64 : Shape := ⟨2, ![4096, 64]⟩
abbrev S4096x64x1 : Shape := ⟨3, ![4096, 64, 1]⟩
abbrev S1x1x256 : Shape := ⟨3, ![1, 1, 256]⟩

abbrev nBuf : Space → Nat
  | .hbm => 32
  | .vmem => 0
  | .smem => 0
  | _ => 0

abbrev bufTy : (tb : Table) → Fin (tcTables nBuf tb) → BufTy
  | .hbm, ⟨0, _⟩ => ⟨S4096x64x256, .f32⟩
  | .hbm, ⟨1, _⟩ => ⟨S768x256, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S4096x64x768, .f32⟩
  | .hbm, ⟨6, _⟩ => ⟨S1x1x768, .f32⟩
  | .hbm, ⟨7, _⟩ => ⟨S4096x64x768, .f32⟩
  | .hbm, ⟨8, _⟩ => ⟨S4096x64x768, .f32⟩
  | .hbm, ⟨9, _⟩ => ⟨S4096x64x256, .f32⟩
  | .hbm, ⟨10, _⟩ => ⟨S4096x64x256, .f32⟩
  | .hbm, ⟨11, _⟩ => ⟨S4096x64x256, .f32⟩
  | .hbm, ⟨12, _⟩ => ⟨S4096x64x64, .f32⟩
  | .hbm, ⟨13, _⟩ => ⟨S_, .f32⟩
  | .hbm, ⟨14, _⟩ => ⟨S4096x64, .f32⟩
  | .hbm, ⟨15, _⟩ => ⟨S_, .f32⟩
  | .hbm, ⟨16, _⟩ => ⟨S4096x64, .f32⟩
  | .hbm, ⟨17, _⟩ => ⟨S4096x64, .f32⟩
  | .hbm, ⟨18, _⟩ => ⟨S4096x64x1, .f32⟩
  | .hbm, ⟨19, _⟩ => ⟨S4096x64x64, .f32⟩
  | .hbm, ⟨20, _⟩ => ⟨S4096x64x64, .f32⟩
  | .hbm, ⟨21, _⟩ => ⟨S4096x64x64, .f32⟩
  | .hbm, ⟨22, _⟩ => ⟨S_, .f32⟩
  | .hbm, ⟨23, _⟩ => ⟨S4096x64, .f32⟩
  | .hbm, ⟨24, _⟩ => ⟨S4096x64x1, .f32⟩
  | .hbm, ⟨25, _⟩ => ⟨S4096x64x64, .f32⟩
  | .hbm, ⟨26, _⟩ => ⟨S4096x64x64, .f32⟩
  | .hbm, ⟨27, _⟩ => ⟨S4096x64x256, .f32⟩
  | .hbm, ⟨28, _⟩ => ⟨S4096x64x256, .f32⟩
  | .hbm, ⟨29, _⟩ => ⟨S1x1x256, .f32⟩
  | .hbm, ⟨30, _⟩ => ⟨S4096x64x256, .f32⟩
  | .hbm, ⟨31, _⟩ => ⟨S4096x64x256, .f32⟩
  | _, _ => ⟨S4096x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S4096x64x768_0_1_2 : S1x1x768.BroadcastsInDim S4096x64x768 (![0, 1, 2] : Fin 3 → Fin S4096x64x768.rank)
  slices_S4096x64x768_S4096x64x256_0_0_0 : S4096x64x768.Slices ![0, 0, 0] S4096x64x256
  slices_S4096x64x768_S4096x64x256_0_0_256 : S4096x64x768.Slices ![0, 0, 256] S4096x64x256
  slices_S4096x64x768_S4096x64x256_0_0_512 : S4096x64x768.Slices ![0, 0, 512] S4096x64x256
  reducesTo_S4096x64x64_S4096x64_d2 : S4096x64x64.ReducesTo [2] S4096x64
  h_S_ : 0 < S_.numel
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  bcast_S256_S1x1x256_2 : S256.BroadcastsInDim S1x1x256 (![2] : Fin 1 → Fin S1x1x256.rank)
  bcast_S1x1x256_S4096x64x256_0_1_2 : S1x1x256.BroadcastsInDim S4096x64x256 (![0, 1, 2] : Fin 3 → Fin S4096x64x256.rank)
  dot_S4096x64x256_S768x256_S4096x64x768_2_1_01_0_n_n_wf : DotDims.WF S4096x64x256 S768x256 S4096x64x768 [2] [1] [0, 1] [0] [] []
  dot_S4096x64x256_S4096x64x256_S4096x64x64_2_2_1_1_0_0_wf : DotDims.WF S4096x64x256 S4096x64x256 S4096x64x64 [2] [2] [1] [1] [0] [0]
  dot_S4096x64x64_S4096x64x256_S4096x64x256_2_1_1_2_0_0_wf : DotDims.WF S4096x64x64 S4096x64x256 S4096x64x256 [2] [1] [1] [2] [0] [0]
  dot_S4096x64x256_S256x256_S4096x64x256_2_1_01_0_n_n_wf : DotDims.WF S4096x64x256 S256x256 S4096x64x256 [2] [1] [0, 1] [0] [] []

variable [Facts₀]

def dot_S4096x64x256_S768x256_S4096x64x768_2_1_01_0_n_n : DotDims S4096x64x256 S768x256 S4096x64x768 where
  lhsContracting := [2]
  rhsContracting := [1]
  lhsNonContracting := [0, 1]
  rhsNonContracting := [0]
  lhsBatch := []
  rhsBatch := []
  wf := dot_S4096x64x256_S768x256_S4096x64x768_2_1_01_0_n_n_wf
def dot_S4096x64x256_S4096x64x256_S4096x64x64_2_2_1_1_0_0 : DotDims S4096x64x256 S4096x64x256 S4096x64x64 where
  lhsContracting := [2]
  rhsContracting := [2]
  lhsNonContracting := [1]
  rhsNonContracting := [1]
  lhsBatch := [0]
  rhsBatch := [0]
  wf := dot_S4096x64x256_S4096x64x256_S4096x64x64_2_2_1_1_0_0_wf
def dot_S4096x64x64_S4096x64x256_S4096x64x256_2_1_1_2_0_0 : DotDims S4096x64x64 S4096x64x256 S4096x64x256 where
  lhsContracting := [2]
  rhsContracting := [1]
  lhsNonContracting := [1]
  rhsNonContracting := [2]
  lhsBatch := [0]
  rhsBatch := [0]
  wf := dot_S4096x64x64_S4096x64x256_S4096x64x256_2_1_1_2_0_0_wf
def dot_S4096x64x256_S256x256_S4096x64x256_2_1_01_0_n_n : DotDims S4096x64x256 S256x256 S4096x64x256 where
  lhsContracting := [2]
  rhsContracting := [1]
  lhsNonContracting := [0, 1]
  rhsNonContracting := [0]
  lhsBatch := []
  rhsBatch := []
  wf := dot_S4096x64x256_S256x256_S4096x64x256_2_1_01_0_n_n_wf

class Facts : Prop extends Facts₀ where

variable [Facts]
-- ==== Proof.WindowAttention.lean ====
/-
  One window of single-head self-attention followed by an output projection, as a function on the
  extended reals.

  A window holds 64 tokens of 256 features. With `x` the window's tokens, `w1 : 768 × 256` and `b1 : 768`
  the fused query/key/value layer, `w2 : 256 × 256` and `b2 : 256` the output layer:

    proj t e   = (∑ d, x t d · w1 e d) + b1 e                         -- columns 0..255 the queries,
                                                                       -- 256..511 the keys, 512..767 the values
    score q k  = ∑ d, proj q d · proj k (256 + d)
    top q      = max (−∞) (the maximum of score q · over the 64 keys, starting from −∞)
    mass q k   = exp (score q k − top q)
    weight q k = mass q k / ∑ k', mass q k'
    mixed q d  = ∑ k, weight q k · proj k (512 + d)
    attend t e = (∑ d, mixed t d · w2 e d) + b2 e

  Windows do not interact: the result for the batch of 4096 windows is `attend` of each window's own tokens
  (`attendAll`). Nothing here is simplified: `−∞` stays the word both programs write for it, and every
  sum keeps the order of its index type, so that each program can be read against these definitions one
  operation at a time, without any algebra on the extended reals.
-/
import Idealize.ShloMosaic.PureOps.Ideal
import Idealize.ShloMosaic.Lib.ValueIdx

noncomputable section

namespace Cert.WindowAttention

open Idealize.ShloMosaic Idealize.ShloMosaic.ValueIdx
open scoped BigOperators

/-- `−∞`, as the f32 word both programs write for it. -/
abbrev negInf : EReal := Ideal.ofBits .f32 0xFF800000#32

/-- Column `d` of the queries, of the keys and of the values inside the fused 768-wide projection. -/
def qcol (d : Fin 256) : Fin 768 := ⟨d.val, by have := d.isLt; omega⟩
def kcol (d : Fin 256) : Fin 768 := ⟨256 + d.val, by have := d.isLt; omega⟩
def vcol (d : Fin 256) : Fin 768 := ⟨512 + d.val, by have := d.isLt; omega⟩

section Window

variable (x : Fin 64 → Fin 256 → EReal) (w1 : Fin 768 → Fin 256 → EReal) (b1 : Fin 768 → EReal)
  (w2 : Fin 256 → Fin 256 → EReal) (b2 : Fin 256 → EReal)

/-- The fused query/key/value projection of token `t`, column `e`. -/
def proj (t : Fin 64) (e : Fin 768) : EReal := (∑ d : Fin 256, x t d * w1 e d) + b1 e

/-- The score of key `k` for query `q`: their inner product. -/
def score (q k : Fin 64) : EReal := ∑ d : Fin 256, proj x w1 b1 q (qcol d) * proj x w1 b1 k (kcol d)

/-- The largest score of query `q` (a maximum over the keys started at `−∞`, then once more against `−∞`). -/
def top (q : Fin 64) : EReal :=
  max negInf ((Finset.univ : Finset (Fin 64)).fold max negInf (fun k => score x w1 b1 q k))

/-- The unnormalised weight of key `k` for query `q`. -/
def mass (q k : Fin 64) : EReal := Ideal.exp (score x w1 b1 q k - top x w1 b1 q)

/-- The softmax weight of key `k` for query `q`. -/
def weight (q k : Fin 64) : EReal := Ideal.div (mass x w1 b1 q k) (∑ k' : Fin 64, mass x w1 b1 q k')

/-- The values mixed by the weights of query `q`, feature `d`. -/
def mixed (q : Fin 64) (d : Fin 256) : EReal := ∑ k : Fin 64, weight x w1 b1 q k * proj x w1 b1 k (vcol d)

/-- The window's result: the mixed values through the output layer. -/
def attend (t : Fin 64) (e : Fin 256) : EReal := (∑ d : Fin 256, mixed x w1 b1 t d * w2 e d) + b2 e

end Window

/-- The whole batch of 4096 windows: entry `(b, t, e)` is `attend` of window `b`'s own tokens at `(t, e)`; the
    weight arrays are read in the layout both programs are given them in (`w1 : [768, 256]`, `w2 : [256, 256]`). -/
def attendAll (X : (⟨3, ![4096, 64, 256]⟩ : Shape).Idx → EReal) (W1 : (⟨2, ![768, 256]⟩ : Shape).Idx → EReal)
    (B1 : (⟨1, ![768]⟩ : Shape).Idx → EReal) (W2 : (⟨2, ![256, 256]⟩ : Shape).Idx → EReal)
    (B2 : (⟨1, ![256]⟩ : Shape).Idx → EReal) : (⟨3, ![4096, 64, 256]⟩ : Shape).Idx → EReal :=
  fun i => attend (fun t d => X (ix3 (i 0) t d)) (fun e d => W1 (ix2 e d)) (fun e => B1 (ix1 e))
    (fun e d => W2 (ix2 e d)) (fun e => B2 (ix1 e)) (i 1) (i 2)

end Cert.WindowAttention

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibBatchedProduct.lean ====
/-
  Products of two stacks of matrices, matrix by matrix, read at an index, over arbitrary sizes.

  For stacks `A : [G, m, k]` and `B : [G, k, n]` the product entry `(g, a, b)` is `∑ c, A (g, a, c) · B (g, c, b)`;
  for `B : [G, n, k]`, contracted along its last axis as well (each matrix of `A` against the transpose of the
  matching matrix of `B`), it is `∑ c, A (g, a, c) · B (g, b, c)`. At the extended reals a kernel's product into
  a zero accumulator is this sum: the accumulator adds `0`, and no rounding or chunk order is left.
-/
import Idealize.ShloMosaic.Lib.StackMember
import Idealize.ShloMosaic.Lib.KernelVsHost

noncomputable section

namespace Cert.Lib.BatchedProduct

open Idealize.ShloMosaic Idealize.ShloMosaic.ValueIdx Idealize.ShloMosaic.StackMember

variable {G m k n : Nat} {φ₁ φ₂ : FTy}

/-- A kernel's product of two stacks into the zero splat, at `(g, a, b)`: member `g`'s plain product. -/
theorem matmul_stack_apply (d : DotDims ⟨3, ![G, m, k]⟩ ⟨3, ![G, k, n]⟩ ⟨3, ![G, m, n]⟩)
    (w : DotDims.WF ⟨3, ![G, m, k]⟩ ⟨3, ![G, k, n]⟩ ⟨3, ![G, m, n]⟩ [2] [1] [1] [2] [0] [0])
    (hd : d = ⟨[2], [1], [1], [2], [0], [0], w⟩) (prec : Option ContractPrecision)
    (A : FVec Ideal ⟨3, ![G, m, k]⟩ φ₁) (B : FVec Ideal ⟨3, ![G, k, n]⟩ φ₂) (g : Fin G) (a : Fin m) (b : Fin n) :
    matmul d prec A B (constant ⟨3, ![G, m, n]⟩ .f32 0x00000000#32) (ix3 g a b)
      = ∑ c : Fin k, A (ix3 g a c) * B (ix3 g c b) := by
  subst hd
  rw [matmul_zero_eq_dotGeneral]
  exact dotGeneral_stack_apply w prec A B g a b

/-- With both operands contracted along their last axis, the operands are read at `(g, a, c)` and `(g, b, c)`. -/
theorem lhsIdx_last (w : DotDims.WF ⟨3, ![G, m, k]⟩ ⟨3, ![G, n, k]⟩ ⟨3, ![G, m, n]⟩ [2] [2] [1] [1] [0] [0])
    (g : Fin G) (a : Fin m) (b : Fin n) (c : Fin k) :
    (⟨[2], [2], [1], [1], [0], [0], w⟩ : DotDims ⟨3, ![G, m, k]⟩ ⟨3, ![G, n, k]⟩ ⟨3, ![G, m, n]⟩).lhsIdx (ix3 g a b)
      ((contrEquiv1 (⟨[2], [2], [1], [1], [0], [0], w⟩ : DotDims ⟨3, ![G, m, k]⟩ ⟨3, ![G, n, k]⟩ ⟨3, ![G, m, n]⟩) k rfl rfl).symm c)
      = ix3 g a c := by
  have c3 := contrEquiv1_symm_val
    (⟨[2], [2], [1], [1], [0], [0], w⟩ : DotDims ⟨3, ![G, m, k]⟩ ⟨3, ![G, n, k]⟩ ⟨3, ![G, m, n]⟩) k rfl rfl c
  funext ax; apply Fin.ext
  match ax with
  | ⟨0, _⟩ => simp [DotDims.lhsIdx]; rfl
  | ⟨1, _⟩ => simp [DotDims.lhsIdx]; rfl
  | ⟨2, _⟩ => simp [DotDims.lhsIdx]; exact c3

theorem rhsIdx_last (w : DotDims.WF ⟨3, ![G, m, k]⟩ ⟨3, ![G, n, k]⟩ ⟨3, ![G, m, n]⟩ [2] [2] [1] [1] [0] [0])
    (g : Fin G) (a : Fin m) (b : Fin n) (c : Fin k) :
    (⟨[2], [2], [1], [1], [0], [0], w⟩ : DotDims ⟨3, ![G, m, k]⟩ ⟨3, ![G, n, k]⟩ ⟨3, ![G, m, n]⟩).rhsIdx (ix3 g a b)
      ((contrEquiv1 (⟨[2], [2], [1], [1], [0], [0], w⟩ : DotDims ⟨3, ![G, m, k]⟩ ⟨3, ![G, n, k]⟩ ⟨3, ![G, m, n]⟩) k rfl rfl).symm c)
      = ix3 g b c := by
  have c3 := contrEquiv1_symm_val
    (⟨[2], [2], [1], [1], [0], [0], w⟩ : DotDims ⟨3, ![G, m, k]⟩ ⟨3, ![G, n, k]⟩ ⟨3, ![G, m, n]⟩) k rfl rfl c
  funext ax; apply Fin.ext
  match ax with
  | ⟨0, _⟩ => simp [DotDims.rhsIdx]; rfl
  | ⟨1, _⟩ => simp [DotDims.rhsIdx]; rfl
  | ⟨2, _⟩ => simp [DotDims.rhsIdx]; exact c3

/-- A kernel's product of a stack with the transposes of a second stack, into the zero splat, at `(g, a, b)`. -/
theorem matmul_stack_last_apply (d : DotDims ⟨3, ![G, m, k]⟩ ⟨3, ![G, n, k]⟩ ⟨3, ![G, m, n]⟩)
    (w : DotDims.WF ⟨3, ![G, m, k]⟩ ⟨3, ![G, n, k]⟩ ⟨3, ![G, m, n]⟩ [2] [2] [1] [1] [0] [0])
    (hd : d = ⟨[2], [2], [1], [1], [0], [0], w⟩) (prec : Option ContractPrecision)
    (A : FVec Ideal ⟨3, ![G, m, k]⟩ φ₁) (B : FVec Ideal ⟨3, ![G, n, k]⟩ φ₂) (g : Fin G) (a : Fin m) (b : Fin n) :
    matmul d prec A B (constant ⟨3, ![G, m, n]⟩ .f32 0x00000000#32) (ix3 g a b)
      = ∑ c : Fin k, A (ix3 g a c) * B (ix3 g b c) := by
  subst hd
  show FloatOps.matmul _ prec A B (constant ⟨3, ![G, m, n]⟩ .f32 0x00000000#32) (ix3 g a b) = _
  rw [Ideal.matmul_constant_zero_apply,
    ← Equiv.sum_comp (contrEquiv1 (⟨[2], [2], [1], [1], [0], [0], w⟩ : DotDims _ _ _) k rfl rfl).symm]
  refine Finset.sum_congr rfl fun c _ => ?_
  rw [lhsIdx_last, rhsIdx_last]

end Cert.Lib.BatchedProduct

end
-- ==== Proof.LibMergeRows.lean ====
/-
  A stack of matrices `[G, m, n]` and the same entries laid out as one tall matrix `[G·m, n]` (row `g·m + a` is
  row `a` of matrix `g`), a block of columns of a matrix, and the "keep the axis" forms of a row statistic
  (`[G, m] → [G, m, 1] → [G, m, n]`: the statistic of row `(g, a)` repeated along the row), each read at an index.
-/
import Idealize.ShloMosaic.Lib.Pipeline.Value
import Idealize.ShloMosaic.Lib.ValueIdx

namespace Cert.Lib.MergeRows

open Idealize.ShloMosaic Idealize.ShloMosaic.ValueIdx

variable {α : Type} {G m n R : Nat}

/-- The stack read as one tall matrix: row `r = g·m + a`, column `c`, is entry `(g, a, c)`. -/
theorem merge_apply (x : (⟨3, ![G, m, n]⟩ : Shape).Idx → α) (h : (⟨3, ![G, m, n]⟩ : Shape).ShapeCasts ⟨2, ![R, n]⟩)
    (g : Fin G) (a : Fin m) (c : Fin n) (r : Fin R) (hr : r.val = g.val * m + a.val) :
    shapeCast ⟨2, ![R, n]⟩ x h (ix2 r c) = x (ix3 g a c) :=
  shapeCast_apply x h (ix2 r c) (ix3 g a c) (by
    rw [Shape.rowMajor_val_three, Shape.rowMajor_val_two]
    show (g.val * m + a.val) * n + c.val = r.val * n + c.val
    rw [hr])

/-- The tall matrix read as a stack: entry `(g, a, c)` is row `r = g·m + a`, column `c`. -/
theorem split_apply (y : (⟨2, ![R, n]⟩ : Shape).Idx → α) (h : (⟨2, ![R, n]⟩ : Shape).ShapeCasts ⟨3, ![G, m, n]⟩)
    (g : Fin G) (a : Fin m) (c : Fin n) (r : Fin R) (hr : r.val = g.val * m + a.val) :
    shapeCast ⟨3, ![G, m, n]⟩ y h (ix3 g a c) = y (ix2 r c) :=
  shapeCast_apply y h (ix3 g a c) (ix2 r c) (by
    rw [Shape.rowMajor_val_three, Shape.rowMajor_val_two]
    show r.val * n + c.val = (g.val * m + a.val) * n + c.val
    rw [hr])

/-- Columns `off .. off + n` of a matrix with `N` columns: column `c` of the block is column `off + c`. -/
theorem columns_apply {N : Nat} (off : Nat) (y : (⟨2, ![R, N]⟩ : Shape).Idx → α)
    (h : (⟨2, ![R, N]⟩ : Shape).Slices ![0, off] ⟨2, ![R, n]⟩) (r : Fin R) (c : Fin n) (c' : Fin N)
    (hc : c'.val = off + c.val) :
    extractStridedSlice ⟨2, ![R, n]⟩ ![0, off] y h (ix2 r c) = y (ix2 r c') :=
  extractStridedSlice_apply ![0, off] y h (ix2 r c) (ix2 r c') (fun a => match a with
    | ⟨0, _⟩ => by show r.val = 0 + r.val; omega
    | ⟨1, _⟩ => by show c'.val = off + c.val; exact hc)

/-- A statistic per row given a trailing unit axis: entry `(g, a, 0)` is the statistic of row `(g, a)`. -/
theorem keep_apply (v : (⟨2, ![G, m]⟩ : Shape).Idx → α) (h : (⟨2, ![G, m]⟩ : Shape).ShapeCasts ⟨3, ![G, m, 1]⟩)
    (g : Fin G) (a : Fin m) :
    shapeCast ⟨3, ![G, m, 1]⟩ v h (ix3 g a (0 : Fin 1)) = v (ix2 g a) :=
  shapeCast_apply v h (ix3 g a (0 : Fin 1)) (ix2 g a) (by
    rw [Shape.rowMajor_val_three, Shape.rowMajor_val_two]
    show g.val * m + a.val = (g.val * m + a.val) * 1 + 0
    omega)

/-- That unit axis repeated along the row: entry `(g, a, c)` is entry `(g, a, 0)`. -/
theorem along_apply (w : (⟨3, ![G, m, 1]⟩ : Shape).Idx → α)
    (h : (⟨3, ![G, m, 1]⟩ : Shape).Broadcasts ⟨3, ![G, m, n]⟩) (g : Fin G) (a : Fin m) (c : Fin n) :
    broadcastTo ⟨3, ![G, m, n]⟩ w h (ix3 g a c) = w (ix3 g a (0 : Fin 1)) :=
  broadcastTo_apply w h (ix3 g a c) (ix3 g a (0 : Fin 1)) (fun ax => match ax with
    | ⟨0, _⟩ => by
      show g.val = if G = 1 then 0 else g.val
      split
      · have := g.isLt; omega
      · rfl
    | ⟨1, _⟩ => by
      show a.val = if m = 1 then 0 else a.val
      split
      · have := a.isLt; omega
      · rfl
    | ⟨2, _⟩ => rfl)

end Cert.Lib.MergeRows
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.KernelBody.lean ====
/-
  The kernel's body, read at one entry.

  One grid point handles a block of 32 windows: `x0 : [32, 64, 256]` holds their tokens, `x1 : [256, 768]` and
  `x3 : [256, 256]` the two weight matrices ALREADY TRANSPOSED (entry `(d, e)` of `x1` is weight `(e, d)` of the fused
  layer), `x2 : [1, 768]` and `x4 : [1, 256]` the biases as single rows. The body lays the 32 · 64 tokens out as the
  rows of one tall matrix (token `t` of window `b` is row `64·b + t`), multiplies once by the fused weights, cuts the
  result into its query, key and value column blocks, folds each back into a stack of 32 matrices, and then works
  window by window: scores, the row maximum, exponentials, the row sum, the quotient, the weighted values; the
  output layer is again one tall product. Narrowing to bf16 changes nothing on the extended reals.

  The stages are named below (`fused`, `part`, `scores`, `peak`, `masses`, `weights`, `mix`, `project`), the body's
  value is their composition (`payload_eq`), and each is read at an index; chained, entry `(b, t, e)` of the block the
  body stores is `attend` of window `b`'s tokens at `(t, e)` (`payload_apply`).
-/
import proofs.«133253_j54168127537767_2_alg».proof.Proof.Gen.KernelIdeal.Skeleton
import proofs.«133253_j54168127537767_2_alg».proof.Proof.WindowAttention
import proofs.«133253_j54168127537767_2_alg».proof.Proof.LibPlainProduct
import proofs.«133253_j54168127537767_2_alg».proof.Proof.LibBatchedProduct
import proofs.«133253_j54168127537767_2_alg».proof.Proof.LibMergeRows
import proofs.«133253_j54168127537767_2_alg».proof.Proof.LibRepeat
import Idealize.ShloMosaic.PureOps.Ideal.Laws
import Idealize.ShloMosaic.Lib.Pipeline.Value
import Idealize.ShloMosaic.Lib.ValueIdx

noncomputable section

namespace Cert.KernelBody

open Cert.KernelIdeal Cert.KernelIdeal.Gen Cert.WindowAttention Cert.Lib
open Idealize.ShloMosaic Idealize.ShloMosaic.ValueIdx
open scoped BigOperators

/-- Token `t` of the block's window `b` is row `64·b + t` of the block's 2048 token rows. -/
def tokenRow (b : Fin 32) (t : Fin 64) : Fin 2048 := ⟨b.val * 64 + t.val, by have := b.isLt; have := t.isLt; omega⟩

/-! ## The stages -/

/-- The fused query/key/value projection of all 2048 token rows. -/
def fused (x0 : FVec Ideal S32x64x256 .f32) (x1 : FVec Ideal S256x768 .bf16) (x2 : FVec Ideal S1x768 .f32) :
    FVec Ideal S2048x768 .f32 :=
  addf (matmul dot_S2048x256_S256x768_S2048x768_1_0_0_1_n_n none
      (truncf .bf16 (shapeCast S2048x256 x0 shapeCasts_S32x64x256_S2048x256) bitsLt_bf16_f32)
      (shapeCast S256x768 x1 shapeCasts_S256x768_S256x768) (constant S2048x768 .f32 0x00000000#32))
    (broadcastTo S2048x768 (shapeCast S1x768 x2 shapeCasts_S1x768_S1x768) broadcasts_S1x768_S2048x768)

/-- A block of 256 columns of the projection, from column `off`, folded back into a stack of 32 matrices. -/
def part (off : Nat) (hs : S2048x768.Slices ![0, off] S2048x256) (y : FVec Ideal S2048x768 .f32) :
    FVec Ideal S32x64x256 .bf16 :=
  shapeCast S32x64x256 (extractStridedSlice S2048x256 ![0, off] (truncf .bf16 y bitsLt_bf16_f32) hs)
    shapeCasts_S2048x256_S32x64x256

/-- Each window's queries against its keys. -/
def scores (y : FVec Ideal S2048x768 .f32) : FVec Ideal S32x64x64 .f32 :=
  matmul dot_S32x64x256_S32x64x256_S32x64x64_2_2_1_1_0_0 none (part 0 slices_S2048x768_o0_0_S2048x256 y)
    (part 256 slices_S2048x768_o0_256_S2048x256 y) (constant S32x64x64 .f32 0x00000000#32)

/-- Each query's largest score. -/
def peak (s : FVec Ideal S32x64x64 .f32) : FVec Ideal S32x64 .f32 :=
  maximumf (broadcast S32x64 (Scalar.ofBits .f32 0xFF800000#32))
    (multiReduction .maximumf [2] S32x64 s 0xFF800000#32 reduces_S32x64x64_S32x64 (.inl rfl) rfl)

/-- Each row's sum. -/
def rowSums (u : FVec Ideal S32x64x64 .f32) : FVec Ideal S32x64 .f32 :=
  multiReduction .add [2] S32x64 u 0x00000000#32 reduces_S32x64x64_S32x64 (.inl rfl) rfl

/-- A per-query number repeated along the query's row of keys. -/
def alongKeys (v : FVec Ideal S32x64 .f32) : FVec Ideal S32x64x64 .f32 :=
  broadcastTo S32x64x64 (shapeCast S32x64x1 v shapeCasts_S32x64_S32x64x1) broadcasts_S32x64x1_S32x64x64

/-- The exponentials of the scores less their row's largest. -/
def masses (s : FVec Ideal S32x64x64 .f32) : FVec Ideal S32x64x64 .f32 := exp (subf s (alongKeys (peak s)))

/-- The softmax weights. -/
def weights (s : FVec Ideal S32x64x64 .f32) : FVec Ideal S32x64x64 .bf16 :=
  truncf .bf16 (divf (masses s) (alongKeys (rowSums (masses s)))) bitsLt_bf16_f32

/-- Each window's values mixed by its weights. -/
def mix (y : FVec Ideal S2048x768 .f32) : FVec Ideal S32x64x256 .f32 :=
  matmul dot_S32x64x64_S32x64x256_S32x64x256_2_1_1_2_0_0 none (weights (scores y))
    (part 512 slices_S2048x768_o0_512_S2048x256 y) (constant S32x64x256 .f32 0x00000000#32)

/-- The output layer over all 2048 token rows, folded back into the block's shape. -/
def project (o : FVec Ideal S32x64x256 .f32) (x3 : FVec Ideal S256x256 .bf16) (x4 : FVec Ideal S1x256 .f32) :
    FVec Ideal S32x64x256 .f32 :=
  shapeCast S32x64x256
    (addf (matmul dot_S2048x256_S256x256_S2048x256_1_0_0_1_n_n none
        (truncf .bf16 (shapeCast S2048x256 o shapeCasts_S32x64x256_S2048x256) bitsLt_bf16_f32)
        (shapeCast S256x256 x3 shapeCasts_S256x256_S256x256) (constant S2048x256 .f32 0x00000000#32))
      (broadcastTo S2048x256 (shapeCast S1x256 x4 shapeCasts_S1x256_S1x256) broadcasts_S1x256_S2048x256))
    shapeCasts_S2048x256_S32x64x256

/-- The body's stored value is the composition of the stages. -/
theorem payload_eq (x0 : FVec Ideal S32x64x256 .f32) (x1 : FVec Ideal S256x768 .bf16) (x2 : FVec Ideal S1x768 .f32)
    (x3 : FVec Ideal S256x256 .bf16) (x4 : FVec Ideal S1x256 .f32) :
    k0_pay1 (F := Ideal) x0 x1 x2 x3 x4 = project (mix (fused x0 x1 x2)) x3 x4 := rfl

/-! ## Each stage at an index -/

theorem fused_apply (x0 : FVec Ideal S32x64x256 .f32) (x1 : FVec Ideal S256x768 .bf16) (x2 : FVec Ideal S1x768 .f32)
    (b : Fin 32) (t : Fin 64) (e : Fin 768) :
    fused x0 x1 x2 (ix2 (tokenRow b t) e)
      = proj (fun t d => x0 (ix3 b t d)) (fun e d => x1 (ix2 d e)) (fun e => x2 (ix2 (0 : Fin 1) e)) t e := by
  unfold fused proj
  rw [addf_apply]
  refine congrArg₂ (· + ·) ?_ ?_
  · refine (Cert.PlainProduct.matmul_plain_apply _ rfl none _ _ (tokenRow b t) e).trans
      (Finset.sum_congr rfl fun d _ => ?_)
    exact congrArg₂ (· * ·) (MergeRows.merge_apply x0 _ b t d (tokenRow b t) rfl)
      (congrFun (shapeCast_self x1 _) (ix2 d e))
  · exact (Repeat.rowRepeat_apply _ _ (tokenRow b t) e).trans (congrFun (shapeCast_self x2 _) (ix2 (0 : Fin 1) e))

theorem part_apply (off : Nat) (hs : S2048x768.Slices ![0, off] S2048x256) (y : FVec Ideal S2048x768 .f32)
    (b : Fin 32) (t : Fin 64) (d : Fin 256) (e : Fin 768) (he : e.val = off + d.val) :
    part off hs y (ix3 b t d) = y (ix2 (tokenRow b t) e) := by
  unfold part
  exact (MergeRows.split_apply _ _ b t d (tokenRow b t) rfl).trans
    (MergeRows.columns_apply off _ hs (tokenRow b t) d e he)

theorem scores_apply (y : FVec Ideal S2048x768 .f32) (b : Fin 32) (q k : Fin 64) :
    scores y (ix3 b q k) = ∑ d : Fin 256, y (ix2 (tokenRow b q) (qcol d)) * y (ix2 (tokenRow b k) (kcol d)) := by
  unfold scores
  refine (BatchedProduct.matmul_stack_last_apply _ dot_S32x64x256_S32x64x256_S32x64x64_2_2_1_1_0_0_wf rfl none _ _
    b q k).trans (Finset.sum_congr rfl fun d _ => ?_)
  exact congrArg₂ (· * ·) (part_apply 0 _ y b q d (qcol d) (Nat.zero_add _).symm) (part_apply 256 _ y b k d (kcol d) rfl)

theorem peak_apply (s : FVec Ideal S32x64x64 .f32) (b : Fin 32) (q : Fin 64) :
    peak s (ix2 b q) = max negInf ((Finset.univ : Finset (Fin 64)).fold max negInf (fun k => s (ix3 b q k))) := by
  unfold peak
  rw [maximumf_apply, broadcast_apply]
  refine congrArg (max negInf) ?_
  refine (Ideal.multiReduction_maximumf_single s _ _ _ _ (ix2 b q)).trans ?_
  refine congrArg (fun f => Finset.fold max negInf f (Finset.univ : Finset (Fin 64))) (funext fun k => ?_)
  exact congrArg s (funext fun a => Fin.ext (by match a with | ⟨0, _⟩ => rfl | ⟨1, _⟩ => rfl | ⟨2, _⟩ => rfl))

theorem rowSums_apply (u : FVec Ideal S32x64x64 .f32) (b : Fin 32) (q : Fin 64) :
    rowSums u (ix2 b q) = ∑ k : Fin 64, u (ix3 b q k) := by
  unfold rowSums
  refine (Ideal.multiReduction_add_single u _ _ _ _ (ix2 b q)).trans ?_
  refine Finset.sum_congr rfl fun k _ => ?_
  exact congrArg u (funext fun a => Fin.ext (by match a with | ⟨0, _⟩ => rfl | ⟨1, _⟩ => rfl | ⟨2, _⟩ => rfl))

theorem alongKeys_apply (v : FVec Ideal S32x64 .f32) (b : Fin 32) (q k : Fin 64) :
    alongKeys v (ix3 b q k) = v (ix2 b q) :=
  (MergeRows.along_apply _ _ b q k).trans (MergeRows.keep_apply v _ b q)

theorem masses_apply (s : FVec Ideal S32x64x64 .f32) (b : Fin 32) (q k : Fin 64) :
    masses s (ix3 b q k) = Ideal.exp (s (ix3 b q k)
      - max negInf ((Finset.univ : Finset (Fin 64)).fold max negInf (fun k' => s (ix3 b q k')))) := by
  show Ideal.exp (s (ix3 b q k) - alongKeys (peak s) (ix3 b q k)) = _
  rw [alongKeys_apply, peak_apply]

theorem weights_apply (s : FVec Ideal S32x64x64 .f32) (b : Fin 32) (q k : Fin 64) :
    weights s (ix3 b q k) = Ideal.div (masses s (ix3 b q k)) (∑ k' : Fin 64, masses s (ix3 b q k')) := by
  show Ideal.div (masses s (ix3 b q k)) (alongKeys (rowSums (masses s)) (ix3 b q k)) = _
  rw [alongKeys_apply, rowSums_apply]

theorem mix_apply (y : FVec Ideal S2048x768 .f32) (b : Fin 32) (q : Fin 64) (d : Fin 256) :
    mix y (ix3 b q d) = ∑ k : Fin 64, weights (scores y) (ix3 b q k) * y (ix2 (tokenRow b k) (vcol d)) := by
  unfold mix
  refine (BatchedProduct.matmul_stack_apply _ dot_S32x64x64_S32x64x256_S32x64x256_2_1_1_2_0_0_wf rfl none _ _
    b q d).trans (Finset.sum_congr rfl fun k _ => ?_)
  exact congrArg (_ * ·) (part_apply 512 _ y b k d (vcol d) rfl)

theorem project_apply (o : FVec Ideal S32x64x256 .f32) (x3 : FVec Ideal S256x256 .bf16) (x4 : FVec Ideal S1x256 .f32)
    (b : Fin 32) (t : Fin 64) (e : Fin 256) :
    project o x3 x4 (ix3 b t e) = (∑ d : Fin 256, o (ix3 b t d) * x3 (ix2 d e)) + x4 (ix2 (0 : Fin 1) e) := by
  unfold project
  refine (MergeRows.split_apply _ _ b t e (tokenRow b t) rfl).trans ?_
  rw [addf_apply]
  refine congrArg₂ (· + ·) ?_ ?_
  · refine (Cert.PlainProduct.matmul_plain_apply _ rfl none _ _ (tokenRow b t) e).trans
      (Finset.sum_congr rfl fun d _ => ?_)
    exact congrArg₂ (· * ·) (MergeRows.merge_apply o _ b t d (tokenRow b t) rfl)
      (congrFun (shapeCast_self x3 _) (ix2 d e))
  · exact (Repeat.rowRepeat_apply _ _ (tokenRow b t) e).trans (congrFun (shapeCast_self x4 _) (ix2 (0 : Fin 1) e))

/-! ## The stages chained: the body against one window's attention -/

section Chain

variable (x0 : FVec Ideal S32x64x256 .f32) (x1 : FVec Ideal S256x768 .bf16) (x2 : FVec Ideal S1x768 .f32)
  (x3 : FVec Ideal S256x256 .bf16) (x4 : FVec Ideal S1x256 .f32)

/-- Window `b`'s tokens, and the weights as the specification indexes them (the block's matrices are transposed). -/
abbrev tokens (b : Fin 32) : Fin 64 → Fin 256 → EReal := fun t d => x0 (ix3 b t d)
abbrev fusedWeight : Fin 768 → Fin 256 → EReal := fun e d => x1 (ix2 d e)
abbrev fusedBias : Fin 768 → EReal := fun e => x2 (ix2 (0 : Fin 1) e)
abbrev outWeight : Fin 256 → Fin 256 → EReal := fun e d => x3 (ix2 d e)
abbrev outBias : Fin 256 → EReal := fun e => x4 (ix2 (0 : Fin 1) e)

theorem scores_fused (b : Fin 32) (q k : Fin 64) :
    scores (fused x0 x1 x2) (ix3 b q k) = score (tokens x0 b) (fusedWeight x1) (fusedBias x2) q k := by
  rw [scores_apply]
  unfold score
  exact Finset.sum_congr rfl fun d _ =>
    congrArg₂ (· * ·) (fused_apply x0 x1 x2 b q (qcol d)) (fused_apply x0 x1 x2 b k (kcol d))

theorem masses_fused (b : Fin 32) (q k : Fin 64) :
    masses (scores (fused x0 x1 x2)) (ix3 b q k) = mass (tokens x0 b) (fusedWeight x1) (fusedBias x2) q k := by
  rw [masses_apply]
  unfold mass top
  simp only [scores_fused]

theorem weights_fused (b : Fin 32) (q k : Fin 64) :
    weights (scores (fused x0 x1 x2)) (ix3 b q k) = weight (tokens x0 b) (fusedWeight x1) (fusedBias x2) q k := by
  rw [weights_apply]
  unfold weight
  simp only [masses_fused]

theorem mix_fused (b : Fin 32) (q : Fin 64) (d : Fin 256) :
    mix (fused x0 x1 x2) (ix3 b q d) = mixed (tokens x0 b) (fusedWeight x1) (fusedBias x2) q d := by
  rw [mix_apply]
  unfold mixed
  exact Finset.sum_congr rfl fun k _ =>
    congrArg₂ (· * ·) (weights_fused x0 x1 x2 b q k) (fused_apply x0 x1 x2 b k (vcol d))

/-- Entry `(b, t, e)` of the block the body stores is window `b`'s attention at `(t, e)`. -/
theorem payload_apply (b : Fin 32) (t : Fin 64) (e : Fin 256) :
    k0_pay1 (F := Ideal) x0 x1 x2 x3 x4 (ix3 b t e)
      = attend (tokens x0 b) (fusedWeight x1) (fusedBias x2) (outWeight x3) (outBias x4) t e := by
  rw [payload_eq, project_apply]
  unfold attend
  exact congrArg (· + _) (Finset.sum_congr rfl fun d _ => congrArg (· * _) (mix_fused x0 x1 x2 b t d))

end Chain

end Cert.KernelBody

end
-- ==== Proof.KernelArrays.lean ====
/-
  From blocks to the whole array.

  The grid has 128 points; point `p` reads windows `32·p .. 32·p + 31` of the tokens and the whole of the four
  weight arrays, and writes back the same 32 windows of the result. Before the grid runs, the two weight matrices are
  transposed (entry `(d, e)` of what the kernel is handed is entry `(e, d)` of the argument) and the two bias
  vectors become single rows. So the block point `p` writes is, entry by entry, the attention of windows
  `32·p + b` (`KernelBody.payload_apply`), every window lies in exactly one point's block, and the array the
  run leaves is `attendAll` of the five arguments.
-/
import proofs.«133253_j54168127537767_2_alg».proof.Proof.Gen.KernelIdeal.Value
import proofs.«133253_j54168127537767_2_alg».proof.Proof.KernelBody
import proofs.«133253_j54168127537767_2_alg».proof.Proof.WindowAttention
import Idealize.ShloMosaic.Lib.StableHlo.Run
import Idealize.ShloMosaic.Lib.Pipeline.Value
import Idealize.ShloMosaic.Lib.ValueIdx

noncomputable section

namespace Cert.KernelArrays

open Cert.KernelIdeal Cert.KernelIdeal.Gen Cert.WindowAttention Cert.KernelBody
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## What the region finds in the four arrays the host prepares -/

/-- The fused weights as the kernel is handed them: the argument transposed. -/
theorem fusedWeights_found (c : Dev nD) :
    (V m c main_v1 : S256x768.Idx → EReal)
      = (truncf (F := Ideal) .bf16
          (transpose S256x768 [1, 0] (m ((c : Thread nD τ).loc main_arg1)) transposes_S768x256_S256x768_1_0)
          bitsLt_bf16_f32 : S256x768.Idx → EReal) := by
  dsimp only [V, hostOps0]; after_results

/-- The output weights as the kernel is handed them: the argument transposed. -/
theorem outWeights_found (c : Dev nD) :
    (V m c main_v3 : S256x256.Idx → EReal)
      = (truncf (F := Ideal) .bf16
          (transpose S256x256 [1, 0] (m ((c : Thread nD τ).loc main_arg3)) transposes_S256x256_S256x256_1_0)
          bitsLt_bf16_f32 : S256x256.Idx → EReal) := by
  dsimp only [V, hostOps0]; after_results

/-- The fused bias as one row. -/
theorem fusedBias_found (c : Dev nD) :
    (V m c main_v4 : S1x768.Idx → EReal)
      = shapeCast S1x768 (m ((c : Thread nD τ).loc main_arg2)) shapeCasts_S768_S1x768 := by
  dsimp only [V, hostOps0]; after_results; rfl

/-- The output bias as one row. -/
theorem outBias_found (c : Dev nD) :
    (V m c main_v5 : S1x256.Idx → EReal)
      = shapeCast S1x256 (m ((c : Thread nD τ).loc main_arg4)) shapeCasts_S256_S1x256 := by
  dsimp only [V, hostOps0]; after_results; rfl

/-- Entry `(d, e)` of the transposed fused weights is entry `(e, d)` of the argument. -/
theorem fusedWeights_apply (c : Dev nD) (d : Fin 256) (e : Fin 768) :
    (V m c main_v1 : S256x768.Idx → EReal) (ix2 d e) = m ((c : Thread nD τ).loc main_arg1) (ix2 e d) := by
  rw [fusedWeights_found]
  exact transpose_apply [1, 0] _ transposes_S768x256_S256x768_1_0 (ix2 d e) (ix2 e d)
    (fun b => match b with | ⟨0, _⟩ => rfl | ⟨1, _⟩ => rfl)

theorem outWeights_apply (c : Dev nD) (d e : Fin 256) :
    (V m c main_v3 : S256x256.Idx → EReal) (ix2 d e) = m ((c : Thread nD τ).loc main_arg3) (ix2 e d) := by
  rw [outWeights_found]
  exact transpose_apply [1, 0] _ transposes_S256x256_S256x256_1_0 (ix2 d e) (ix2 e d)
    (fun b => match b with | ⟨0, _⟩ => rfl | ⟨1, _⟩ => rfl)

/-- Entry `(0, e)` of a bias row is entry `e` of the argument. -/
theorem fusedBias_apply (c : Dev nD) (e : Fin 768) :
    (V m c main_v4 : S1x768.Idx → EReal) (ix2 (0 : Fin 1) e) = m ((c : Thread nD τ).loc main_arg2) (ix1 e) := by
  rw [fusedBias_found]
  exact shapeCast_apply _ shapeCasts_S768_S1x768 (ix2 (0 : Fin 1) e) (ix1 e) (by
    rw [Shape.rowMajor_val_one, Shape.rowMajor_val_two]
    show e.val = 0 * 768 + e.val
    omega)

theorem outBias_apply (c : Dev nD) (e : Fin 256) :
    (V m c main_v5 : S1x256.Idx → EReal) (ix2 (0 : Fin 1) e) = m ((c : Thread nD τ).loc main_arg4) (ix1 e) := by
  rw [outBias_found]
  exact shapeCast_apply _ shapeCasts_S256_S1x256 (ix2 (0 : Fin 1) e) (ix1 e) (by
    rw [Shape.rowMajor_val_one, Shape.rowMajor_val_two]
    show e.val = 0 * 256 + e.val
    omega)

/-! ## The index maps, decided over the 128 points -/

/-- Point `p` reads and writes the windows from `32·p`: the tokens' and the result's block index is `(p, 0, 0)`, and the
    four weight arrays are always read whole. -/
theorem block_indices : ∀ t : Fin cfg0.N,
    win0_5.index t (0 : Fin 3) = t.val ∧ win0_5.index t (1 : Fin 3) = 0 ∧ win0_5.index t (2 : Fin 3) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem zero3 : (![0, 0, 0] : Fin 3 → Nat) = fun _ => 0 := funext fun a => by fin_cases a <;> rfl
theorem zero2 : (![0, 0] : Fin 2 → Nat) = fun _ => 0 := funext fun a => by fin_cases a <;> rfl

/-- An entry of the result is in point `t`'s block iff each coordinate is in the block's range on its axis. -/
theorem mem_block (t : Fin cfg0.N) (i : S4096x64x256.Idx) :
    i ∈ ((cfg0.win 5).blk t).view.set ↔ ∀ a : Fin 3, win0_5.index t a * S32x64x256.size a ≤ (i a).val
      ∧ (i a).val < win0_5.index t a * S32x64x256.size a + S32x64x256.size a := by
  show i ∈ ((View.whole main_v6).slice (win0_5.rect t)).set ↔ _
  rw [View.set_slice_whole, Rect.mem_set_unit]
  exact Iff.rfl

/-! ## The input blocks, read back to the arguments -/

/-- Point `t`'s block of tokens at `(b, t', d)` is the argument's entry `(32·t + b, t', d)`. -/
theorem tokens_block (c : Dev nD) (t : Fin cfg0.N) (b : Fin 32) (t' : Fin 64) (d : Fin 256) (B : Fin 4096)
    (hB : B.val = t.val * 32 + b.val) :
    iblk m c 0 t (ix3 b t' d) = m ((c : Thread nD τ).loc main_arg0) (ix3 B t' d) := by
  obtain ⟨-, -, -, e0, e1, e2, -⟩ := block_indices t
  show V m c main_arg0 (((cfg0.win 0).blk t).view.emb (ix3 b t' d)) = _
  rw [V_main_arg0]
  refine congrArg _ (funext fun a => Fin.ext ?_)
  match a with
  | ⟨0, _⟩ => show win0_0.index t (0 : Fin 3) * 32 + 1 * b.val = B.val; omega
  | ⟨1, _⟩ => show win0_0.index t (1 : Fin 3) * 64 + 1 * t'.val = t'.val; omega
  | ⟨2, _⟩ => show win0_0.index t (2 : Fin 3) * 256 + 1 * d.val = d.val; omega

/-- Every point's block of the transposed fused weights is the whole array: entry `(d, e)` is weight `(e, d)`. -/
theorem fusedWeights_block (c : Dev nD) (t : Fin cfg0.N) (d : Fin 256) (e : Fin 768) :
    iblk m c 1 t (ix2 d e) = m ((c : Thread nD τ).loc main_arg1) (ix2 e d) := by
  obtain ⟨-, -, -, -, -, -, e0, e1, -⟩ := block_indices t
  show V m c main_v1 (((cfg0.win 1).blk t).view.emb (ix2 d e)) = _
  have he : ((cfg0.win 1).blk t).view.emb (ix2 d e) = ix2 d e := funext fun a => Fin.ext (by
    match a with
    | ⟨0, _⟩ => show win0_1.index t (0 : Fin 2) * 256 + 1 * d.val = d.val; omega
    | ⟨1, _⟩ => show win0_1.index t (1 : Fin 2) * 768 + 1 * e.val = e.val; omega)
  rw [he]
  exact fusedWeights_apply m c d e

theorem fusedBias_block (c : Dev nD) (t : Fin cfg0.N) (e : Fin 768) :
    iblk m c 2 t (ix2 (0 : Fin 1) e) = m ((c : Thread nD τ).loc main_arg2) (ix1 e) := by
  obtain ⟨-, -, -, -, -, -, -, -, e0, e1, -⟩ := block_indices t
  show V m c main_v4 (((cfg0.win 2).blk t).view.emb (ix2 (0 : Fin 1) e)) = _
  have he : ((cfg0.win 2).blk t).view.emb (ix2 (0 : Fin 1) e) = ix2 (0 : Fin 1) e := funext fun a => Fin.ext (by
    match a with
    | ⟨0, _⟩ => show win0_2.index t (0 : Fin 2) * 1 + 1 * 0 = 0; omega
    | ⟨1, _⟩ => show win0_2.index t (1 : Fin 2) * 768 + 1 * e.val = e.val; omega)
  rw [he]
  exact fusedBias_apply m c e

theorem outWeights_block (c : Dev nD) (t : Fin cfg0.N) (d e : Fin 256) :
    iblk m c 3 t (ix2 d e) = m ((c : Thread nD τ).loc main_arg3) (ix2 e d) := by
  obtain ⟨-, -, -, -, -, -, -, -, -, -, e0, e1, -⟩ := block_indices t
  show V m c main_v3 (((cfg0.win 3).blk t).view.emb (ix2 d e)) = _
  have he : ((cfg0.win 3).blk t).view.emb (ix2 d e) = ix2 d e := funext fun a => Fin.ext (by
    match a with
    | ⟨0, _⟩ => show win0_3.index t (0 : Fin 2) * 256 + 1 * d.val = d.val; omega
    | ⟨1, _⟩ => show win0_3.index t (1 : Fin 2) * 256 + 1 * e.val = e.val; omega)
  rw [he]
  exact outWeights_apply m c d e

theorem outBias_block (c : Dev nD) (t : Fin cfg0.N) (e : Fin 256) :
    iblk m c 4 t (ix2 (0 : Fin 1) e) = m ((c : Thread nD τ).loc main_arg4) (ix1 e) := by
  obtain ⟨-, -, -, -, -, -, -, -, -, -, -, -, e0, e1⟩ := block_indices t
  show V m c main_v5 (((cfg0.win 4).blk t).view.emb (ix2 (0 : Fin 1) e)) = _
  have he : ((cfg0.win 4).blk t).view.emb (ix2 (0 : Fin 1) e) = ix2 (0 : Fin 1) e := funext fun a => Fin.ext (by
    match a with
    | ⟨0, _⟩ => show win0_4.index t (0 : Fin 2) * 1 + 1 * 0 = 0; omega
    | ⟨1, _⟩ => show win0_4.index t (1 : Fin 2) * 256 + 1 * e.val = e.val; omega)
  rw [he]
  exact outBias_apply m c e

/-! ## What a point writes back, the cover, and the array after the run -/

/-- The attention of all 4096 windows, of the five arguments as launched. -/
abbrev result (c : Dev nD) : S4096x64x256.Idx → EReal :=
  attendAll (m ((c : Thread nD τ).loc main_arg0)) (m ((c : Thread nD τ).loc main_arg1))
    (m ((c : Thread nD τ).loc main_arg2)) (m ((c : Thread nD τ).loc main_arg3)) (m ((c : Thread nD τ).loc main_arg4))

/-- What point `t` writes back is block `t` of the whole result: windows `32·t .. 32·t + 31`. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero zero3]
  simp only [View.ld_unit_zero (S := S32x64x256) zero3, View.ld_unit_zero (S := S256x768) zero2,
    View.ld_unit_zero (S := S1x768) zero2, View.ld_unit_zero (S := S256x256) zero2, View.ld_unit_zero (S := S1x256) zero2]
  funext j
  obtain ⟨b, t', e, rfl⟩ : ∃ (b : Fin 32) (t' : Fin 64) (e : Fin 256), j = ix3 b t' e := ⟨j 0, j 1, j 2, eq_ix3 j⟩
  obtain ⟨e0, e1, e2, -⟩ := block_indices t
  have hN : cfg0.N = 128 := N_0
  have hB : t.val * 32 + b.val < 4096 := by have := t.isLt; have := b.isLt; omega
  show k0_pay1 (F := Ideal) (iblk m c 0 t) (iblk m c 1 t) (iblk m c 2 t) (iblk m c 3 t) (iblk m c 4 t) (ix3 b t' e)
    = result m c (((cfg0.win 5).blk t).view.emb (ix3 b t' e))
  have hemb : ((cfg0.win 5).blk t).view.emb (ix3 b t' e) = ix3 (⟨t.val * 32 + b.val, hB⟩ : Fin 4096) t' e :=
    funext fun a => Fin.ext (by
      match a with
      | ⟨0, _⟩ => show win0_5.index t (0 : Fin 3) * 32 + 1 * b.val = t.val * 32 + b.val; omega
      | ⟨1, _⟩ => show win0_5.index t (1 : Fin 3) * 64 + 1 * t'.val = t'.val; omega
      | ⟨2, _⟩ => show win0_5.index t (2 : Fin 3) * 256 + 1 * e.val = e.val; omega)
  rw [hemb]
  refine (payload_apply (iblk m c 0 t) (iblk m c 1 t) (iblk m c 2 t) (iblk m c 3 t) (iblk m c 4 t) b t' e).trans ?_
  have h0 : tokens (iblk m c 0 t) b = fun t'' d => m ((c : Thread nD τ).loc main_arg0) (ix3 (⟨t.val * 32 + b.val, hB⟩ : Fin 4096) t'' d) :=
    funext fun t'' => funext fun d => tokens_block m c t b t'' d ⟨t.val * 32 + b.val, hB⟩ rfl
  have h1 : fusedWeight (iblk m c 1 t) = fun e' d => m ((c : Thread nD τ).loc main_arg1) (ix2 e' d) :=
    funext fun e' => funext fun d => fusedWeights_block m c t d e'
  have h2 : fusedBias (iblk m c 2 t) = fun e' => m ((c : Thread nD τ).loc main_arg2) (ix1 e') :=
    funext fun e' => fusedBias_block m c t e'
  have h3 : outWeight (iblk m c 3 t) = fun e' d => m ((c : Thread nD τ).loc main_arg3) (ix2 e' d) :=
    funext fun e' => funext fun d => outWeights_block m c t d e'
  have h4 : outBias (iblk m c 4 t) = fun e' => m ((c : Thread nD τ).loc main_arg4) (ix1 e') :=
    funext fun e' => outBias_block m c t e'
  rw [h0, h1, h2, h3, h4]
  rfl

/-- Every entry of the result lies in some point's block: window `B` in point `B / 32`'s. -/
theorem covered (i : S4096x64x256.Idx) :
    ∃ t : Fin cfg0.N, (cfg0.win 5).flush t = true ∧ i ∈ ((cfg0.win 5).blk t).view.set := by
  have h0 : (i 0).val < 4096 := (i 0).isLt
  have h1 : (i 1).val < 64 := (i 1).isLt
  have h2 : (i 2).val < 256 := (i 2).isLt
  have hN : cfg0.N = 128 := N_0
  have ht : (i 0).val / 32 < cfg0.N := by rw [hN]; omega
  obtain ⟨e0, e1, e2, -⟩ := block_indices ⟨(i 0).val / 32, ht⟩
  refine ⟨⟨(i 0).val / 32, ht⟩, flush0_5 _, ?_⟩
  rw [mem_block]
  intro a
  match a with
  | ⟨0, _⟩ =>
    show win0_5.index ⟨(i 0).val / 32, ht⟩ (0 : Fin 3) * 32 ≤ (i 0).val
      ∧ (i 0).val < win0_5.index ⟨(i 0).val / 32, ht⟩ (0 : Fin 3) * 32 + 32
    have e0' : win0_5.index ⟨(i 0).val / 32, ht⟩ (0 : Fin 3) = (i 0).val / 32 := e0
    omega
  | ⟨1, _⟩ =>
    show win0_5.index ⟨(i 0).val / 32, ht⟩ (1 : Fin 3) * 64 ≤ (i 1).val
      ∧ (i 1).val < win0_5.index ⟨(i 0).val / 32, ht⟩ (1 : Fin 3) * 64 + 64
    omega
  | ⟨2, _⟩ =>
    show win0_5.index ⟨(i 0).val / 32, ht⟩ (2 : Fin 3) * 256 ≤ (i 2).val
      ∧ (i 2).val < win0_5.index ⟨(i 0).val / 32, ht⟩ (2 : Fin 3) * 256 + 256
    omega

/-- The array the run leaves is the attention of all 4096 windows. -/
theorem final (c : Dev nD) : (dats m 0 c).arrAt 5 cfg0.N = result m c :=
  (dats m 0 c).arrAt_eq_of_cover 5 (result m c) (fun t _ => flushed_eq m c t) covered

/-- Every weakly fair execution of the idealized kernel's program ends with the result array at the attention of all
    4096 windows of the arguments, and the arguments as launched. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelArrays

end
-- ==== Proof.ReferenceAttention.lean ====
/-
  The reference program, one operation at a time, is single-head attention inside each window followed by the output
  layer: its result array equals `attendAll` of its five argument arrays (`reference_eq`).

  Every intermediate array of the program is read at an index written by its coordinates — a window `b`, tokens
  `t`, `q`, `k`, a feature `d`, a fused column `e` — and identified with the specification's function of the same
  name at those coordinates:

    x · w1ᵀ + b1                       is  proj        (its three column slices: the queries, keys and values)
    q · kᵀ                             is  score
    max (−∞) (row maximum from −∞)     is  top
    exp (score − top)                  is  mass
    mass / (0 + row sum of mass)       is  weight      (the sum's initial value is the word of 0)
    weight · v                         is  mixed
    mixed · w2ᵀ + b2                   is  attend

  Each step rewrites one operation by its reading at an index, identifies the composed index functions with the
  coordinates they compute, and cites the step before; no sum is reordered and `−∞` is never evaluated.
-/
import proofs.«133253_j54168127537767_2_alg».proof.Proof.Gen.ReferenceIdeal.Read
import proofs.«133253_j54168127537767_2_alg».proof.Proof.WindowAttention
import Idealize.ShloMosaic.PureOps.Ideal.Laws
import Idealize.ShloMosaic.Lib.ValueIdx

noncomputable section

namespace Cert.ReferenceAttention

open Cert.ReferenceIdeal Cert.ReferenceIdeal.Read Cert.WindowAttention Idealize.ShloMosaic Idealize.ShloMosaic.ValueIdx
open scoped BigOperators

variable (x0 : FVec Ideal S4096x64x256 .f32) (x1 : FVec Ideal S768x256 .f32) (x2 : FVec Ideal S768 .f32)
  (x3 : FVec Ideal S256x256 .f32) (x4 : FVec Ideal S256 .f32)

/-! ## The arrays read by coordinates -/

/-- The 64 tokens of window `b`. -/
abbrev win (b : Fin 4096) : Fin 64 → Fin 256 → EReal := fun t d => x0 (ix3 b t d)
/-- The fused query/key/value weights and bias, and the output layer's, by coordinates. -/
abbrev qkvW : Fin 768 → Fin 256 → EReal := fun e d => x1 (ix2 e d)
abbrev qkvB : Fin 768 → EReal := fun e => x2 (ix1 e)
abbrev outW : Fin 256 → Fin 256 → EReal := fun e d => x3 (ix2 e d)
abbrev outB : Fin 256 → EReal := fun e => x4 (ix1 e)

/-! ## The fused projection and its three slices -/

/-- `x · w1ᵀ + b1` at `(b, t, e)` is the specification's `proj` of window `b`. -/
theorem v3_at (b : Fin 4096) (t : Fin 64) (e : Fin 768) :
    val_main_v3 (F := Ideal) x0 x1 x2 (ix3 b t e) = proj (win x0 b) (qkvW x1) (qkvB x2) t e := by
  rw [val_main_v3_apply, val_main_v0_apply, val_main_v2_apply, val_main_v1_apply, Ideal.addf_def]
  have el : ∀ k : Fin 256, lidx_main_v0 (ix3 b t e) k = ix3 b t k := fun k =>
    funext fun a => Fin.ext (by match a with | ⟨0, _⟩ => rfl | ⟨1, _⟩ => rfl | ⟨2, _⟩ => rfl)
  have er : ∀ k : Fin 256, ridx_main_v0 (ix3 b t e) k = ix2 e k := fun k =>
    funext fun a => Fin.ext (by match a with | ⟨0, _⟩ => rfl | ⟨1, _⟩ => rfl)
  have eb : idx_main_v1 (idx_main_v2 (ix3 b t e)) = ix1 e :=
    funext fun a => Fin.ext (by match a with | ⟨0, _⟩ => rfl)
  rw [eb]
  unfold proj
  exact congrArg (· + _) (Finset.sum_congr rfl fun k _ => by rw [el, er])

/-- The first slice holds the query columns. -/
theorem v4_at (b : Fin 4096) (t : Fin 64) (d : Fin 256) :
    val_main_v4 (F := Ideal) x0 x1 x2 (ix3 b t d) = proj (win x0 b) (qkvW x1) (qkvB x2) t (qcol d) := by
  rw [val_main_v4_apply]
  have e : idx_main_v4 (ix3 b t d) = ix3 b t (qcol d) :=
    funext fun a => Fin.ext (by match a with | ⟨0, _⟩ => rfl | ⟨1, _⟩ => rfl | ⟨2, _⟩ => rfl)
  rw [e, v3_at]

/-- The second slice holds the key columns. -/
theorem v5_at (b : Fin 4096) (t : Fin 64) (d : Fin 256) :
    val_main_v5 (F := Ideal) x0 x1 x2 (ix3 b t d) = proj (win x0 b) (qkvW x1) (qkvB x2) t (kcol d) := by
  rw [val_main_v5_apply]
  have e : idx_main_v5 (ix3 b t d) = ix3 b t (kcol d) :=
    funext fun a => Fin.ext (by match a with | ⟨0, _⟩ => rfl | ⟨1, _⟩ => rfl | ⟨2, _⟩ => rfl)
  rw [e, v3_at]

/-- The third slice holds the value columns. -/
theorem v6_at (b : Fin 4096) (t : Fin 64) (d : Fin 256) :
    val_main_v6 (F := Ideal) x0 x1 x2 (ix3 b t d) = proj (win x0 b) (qkvW x1) (qkvB x2) t (vcol d) := by
  rw [val_main_v6_apply]
  have e : idx_main_v6 (ix3 b t d) = ix3 b t (vcol d) :=
    funext fun a => Fin.ext (by match a with | ⟨0, _⟩ => rfl | ⟨1, _⟩ => rfl | ⟨2, _⟩ => rfl)
  rw [e, v3_at]

/-! ## The scores and their row maximum -/

/-- `q · kᵀ` at `(b, q, k)` is the inner product of query `q` and key `k` of window `b`. -/
theorem v7_at (b : Fin 4096) (q k : Fin 64) :
    val_main_v7 (F := Ideal) x0 x1 x2 (ix3 b q k) = score (win x0 b) (qkvW x1) (qkvB x2) q k := by
  rw [val_main_v7_apply]
  unfold score
  refine Finset.sum_congr rfl fun d _ => ?_
  have el : lidx_main_v7 (ix3 b q k) d = ix3 b q d :=
    funext fun a => Fin.ext (by match a with | ⟨0, _⟩ => rfl | ⟨1, _⟩ => rfl | ⟨2, _⟩ => rfl)
  have er : ridx_main_v7 (ix3 b q k) d = ix3 b k d :=
    funext fun a => Fin.ext (by match a with | ⟨0, _⟩ => rfl | ⟨1, _⟩ => rfl | ⟨2, _⟩ => rfl)
  rw [el, er, v4_at, v5_at]

/-- A maximum over the last axis of a `4096 × 64 × 64` array, started from the word of `−∞`: at row `(b, q)` it is the
    fold of `max` from `−∞` over the 64 entries of that row. -/
theorem rowMax_at (y : FVec Ideal S4096x64x64 .f32) (b : Fin 4096) (q : Fin 64) :
    Host.reduce FloatOps.maximumf y (val_main_cst (F := Ideal)) Gen.reducesTo_S4096x64x64_S4096x64_d2 Gen.h_S_ (ix2 b q)
      = (Finset.univ : Finset (Fin 64)).fold max negInf (fun k => y (ix3 b q k)) := by
  rw [Host.reduce_eq_fold_single (FloatOps.maximumf (F := Ideal) (φ := .f32)) y (val_main_cst (F := Ideal))
    Gen.reducesTo_S4096x64x64_S4096x64_d2 (by decide) Gen.h_S_ (ix2 b q)]
  -- the row `(b, q)` with coordinate `k` inserted on the reduced axis is `(b, q, k)`
  have hk : ∀ k : Fin 64, (show S4096x64x64.Reduces [2] S4096x64 from by decide).lift (ix2 b q) k = ix3 b q k := fun k =>
    funext fun a => Fin.ext (by match a with | ⟨0, _⟩ => rfl | ⟨1, _⟩ => rfl | ⟨2, _⟩ => rfl)
  show (Finset.univ : Finset (Fin 64)).fold max negInf
    (fun k => y ((show S4096x64x64.Reduces [2] S4096x64 from by decide).lift (ix2 b q) k)) = _
  exact congrArg (fun f : Fin 64 → EReal => (Finset.univ : Finset (Fin 64)).fold max negInf f)
    (funext fun k => congrArg y (hk k))

/-- The row maximum of the scores. -/
theorem v8_at (b : Fin 4096) (q : Fin 64) :
    val_main_v8 (F := Ideal) x0 x1 x2 (ix2 b q)
      = (Finset.univ : Finset (Fin 64)).fold max negInf (fun k => score (win x0 b) (qkvW x1) (qkvB x2) q k) := by
  unfold val_main_v8
  rw [rowMax_at]
  exact congrArg (fun f : Fin 64 → EReal => (Finset.univ : Finset (Fin 64)).fold max negInf f)
    (funext fun k => v7_at x0 x1 x2 b q k)

/-- The row maximum once more against `−∞`: the specification's `top`. -/
theorem v10_at (b : Fin 4096) (q : Fin 64) :
    val_main_v10 (F := Ideal) x0 x1 x2 (ix2 b q) = top (win x0 b) (qkvW x1) (qkvB x2) q := by
  rw [val_main_v10_apply, val_main_v9_apply, val_main_cst_0_apply, v8_at, Ideal.ofBits_def, Ideal.maximumf_def]
  rfl

/-! ## The softmax -/

/-- `exp (score − top)`, the row maximum broadcast back along the keys. -/
theorem v14_at (b : Fin 4096) (q k : Fin 64) :
    val_main_v14 (F := Ideal) x0 x1 x2 (ix3 b q k) = mass (win x0 b) (qkvW x1) (qkvB x2) q k := by
  rw [val_main_v14_apply, val_main_v13_apply, val_main_v12_apply, val_main_v11_apply]
  have e : idx_main_v11 (idx_main_v12 (ix3 b q k)) = ix2 b q :=
    funext fun a => Fin.ext (by match a with | ⟨0, _⟩ => rfl | ⟨1, _⟩ => rfl)
  rw [e, v7_at, v10_at, Ideal.hostUnary_exp_def, Ideal.subf_def]
  rfl

/-- The row sum of the masses; the sum starts from the word of `0`. -/
theorem v15_at (b : Fin 4096) (q : Fin 64) :
    val_main_v15 (F := Ideal) x0 x1 x2 (ix2 b q) = ∑ k : Fin 64, mass (win x0 b) (qkvW x1) (qkvB x2) q k := by
  rw [val_main_v15_apply, val_main_cst_1_apply, Ideal.ofBits_def, Ideal.ofBits_zero_f32, zero_add]
  refine Finset.sum_congr rfl fun k _ => ?_
  have e : idx_main_v15 (ix2 b q) k = ix3 b q k :=
    funext fun a => Fin.ext (by match a with | ⟨0, _⟩ => rfl | ⟨1, _⟩ => rfl | ⟨2, _⟩ => rfl)
  rw [e, v14_at]

/-- The mass over the row sum, the sum broadcast back along the keys. -/
theorem v18_at (b : Fin 4096) (q k : Fin 64) :
    val_main_v18 (F := Ideal) x0 x1 x2 (ix3 b q k) = weight (win x0 b) (qkvW x1) (qkvB x2) q k := by
  rw [val_main_v18_apply, val_main_v17_apply, val_main_v16_apply]
  have e : idx_main_v16 (idx_main_v17 (ix3 b q k)) = ix2 b q :=
    funext fun a => Fin.ext (by match a with | ⟨0, _⟩ => rfl | ⟨1, _⟩ => rfl)
  rw [e, v14_at, v15_at, Ideal.hostDivf_def]
  rfl

/-! ## The mixed values and the output layer -/

/-- `weights · v` at `(b, q, d)`. -/
theorem v19_at (b : Fin 4096) (q : Fin 64) (d : Fin 256) :
    val_main_v19 (F := Ideal) x0 x1 x2 (ix3 b q d) = mixed (win x0 b) (qkvW x1) (qkvB x2) q d := by
  rw [val_main_v19_apply]
  unfold mixed
  refine Finset.sum_congr rfl fun k _ => ?_
  have el : lidx_main_v19 (ix3 b q d) k = ix3 b q k :=
    funext fun a => Fin.ext (by match a with | ⟨0, _⟩ => rfl | ⟨1, _⟩ => rfl | ⟨2, _⟩ => rfl)
  have er : ridx_main_v19 (ix3 b q d) k = ix3 b k d :=
    funext fun a => Fin.ext (by match a with | ⟨0, _⟩ => rfl | ⟨1, _⟩ => rfl | ⟨2, _⟩ => rfl)
  rw [el, er, v18_at, v6_at]

/-- `mixed · w2ᵀ + b2` at `(b, t, e)` is the specification's `attend` of window `b`. -/
theorem v23_at (b : Fin 4096) (t : Fin 64) (e : Fin 256) :
    val_main_v23 (F := Ideal) x0 x1 x2 x3 x4 (ix3 b t e)
      = attend (win x0 b) (qkvW x1) (qkvB x2) (outW x3) (outB x4) t e := by
  rw [val_main_v23_apply, val_main_v20_apply, val_main_v22_apply, val_main_v21_apply, Ideal.addf_def]
  have eb : idx_main_v21 (idx_main_v22 (ix3 b t e)) = ix1 e :=
    funext fun a => Fin.ext (by match a with | ⟨0, _⟩ => rfl)
  rw [eb]
  unfold attend
  refine congrArg (· + _) (Finset.sum_congr rfl fun d _ => ?_)
  have el : lidx_main_v20 (ix3 b t e) d = ix3 b t d :=
    funext fun a => Fin.ext (by match a with | ⟨0, _⟩ => rfl | ⟨1, _⟩ => rfl | ⟨2, _⟩ => rfl)
  have er : ridx_main_v20 (ix3 b t e) d = ix2 e d :=
    funext fun a => Fin.ext (by match a with | ⟨0, _⟩ => rfl | ⟨1, _⟩ => rfl)
  rw [el, er, v19_at]

/-! ## The reference program is the specification -/

/-- The reference's result array is `attendAll` of its five arguments. -/
theorem reference_eq (x0 : FVec Ideal S4096x64x256 .f32) (x1 : FVec Ideal S768x256 .f32) (x2 : FVec Ideal S768 .f32)
    (x3 : FVec Ideal S256x256 .f32) (x4 : FVec Ideal S256 .f32) :
    val_main_v23 (F := Ideal) x0 x1 x2 x3 x4 = attendAll x0 x1 x2 x3 x4 := by
  funext i
  obtain ⟨b, t, e, rfl⟩ : ∃ (b : Fin 4096) (t : Fin 64) (e : Fin 256), i = ix3 b t e := ⟨i 0, i 1, i 2, eq_ix3 i⟩
  rw [v23_at]
  rfl

end Cert.ReferenceAttention

end
-- ==== Proof.lean ====
/-
  The kernel and its reference compute the same function on the extended reals.

  Both programs take 4096 windows of 64 tokens with 256 features, a fused query/key/value layer (768 × 256 weights, 768
  biases) and an output layer (256 × 256 weights, 256 biases), and return for each window single-head attention over
  the window's own tokens followed by the output layer — `WindowAttention.attendAll` of the five arguments.

  The reference does it on the whole arrays (`ReferenceAttention.reference_eq`: each of its operations is the
  specification's function of the same stage). The kernel does it 32 windows at a time over a grid of 128 points, on
  weights transposed beforehand and with operands narrowed to bf16 on the way into each product, which is the identity on
  the extended reals; the block a point writes is the attention of its 32 windows (`KernelBody.payload_apply`), the
  128 blocks tile the result, and so the array the run leaves is `attendAll` too (`KernelArrays.run`). No sum is
  reordered and nothing is cancelled, so the equality holds at every extended-real input: the finiteness of the inputs
  is not used.

  The three programs run to completion leaving their arguments as launched (the frames): for the kernel as printed
  and its idealization by the frame of a pipelined region whose body loads whole blocks and stores one, for the
  reference by its run read back. The idealization rewrote no operation, so it preserves the kernel trivially.
-/
import proofs.«133253_j54168127537767_2_alg».proof.Defs
import proofs.«133253_j54168127537767_2_alg».proof.Proof.Gen.Kernel
import proofs.«133253_j54168127537767_2_alg».proof.Proof.Gen.Kernel.Frame
import proofs.«133253_j54168127537767_2_alg».proof.Proof.Gen.KernelIdeal
import proofs.«133253_j54168127537767_2_alg».proof.Proof.Gen.KernelIdeal.Frame
import proofs.«133253_j54168127537767_2_alg».proof.Proof.Gen.KernelIdeal.Value
import proofs.«133253_j54168127537767_2_alg».proof.Proof.Gen.ReferenceIdeal
import proofs.«133253_j54168127537767_2_alg».proof.Proof.Gen.ReferenceIdeal.Run
import proofs.«133253_j54168127537767_2_alg».proof.Proof.Gen.ReferenceIdeal.Read
import proofs.«133253_j54168127537767_2_alg».proof.Proof.Gen.Pre_finite_inputs
import proofs.«133253_j54168127537767_2_alg».proof.Proof.KernelArrays
import proofs.«133253_j54168127537767_2_alg».proof.Proof.ReferenceAttention
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the five arguments, the idealized kernel ends with its result array at the attention of
    all 4096 windows of them, and the reference ends with its result at the same function of the same arguments. -/
theorem algebraic : Cert.algebraic_KernelIdeal_ReferenceIdeal := by
  intro m ρ m' ρ' _ hagree
  refine ⟨fun c => Cert.KernelArrays.result m c, Cert.KernelArrays.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceAttention.reference_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
